-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384 : Shape := ⟨2, ![16, 16384]⟩
abbrev S16384x16384 : Shape := ⟨2, ![16384, 16384]⟩
abbrev S_ : Shape := ⟨0, ![]⟩

class Facts : Prop where
  bcast_S_S16x16384 : S_.BroadcastsInDim S16x16384 (![] : Fin 0 → Fin S16x16384.rank)
  reducesTo_S16x16384_S_d0_1 : S16x16384.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16x16384 .f32) (main_arg1 : FVec F S16384x16384 .f32) : IVec S_ 1 :=
  let main_v0 : FVec F S16x16384 .f32 := Host.absf main_arg0
  let main_cst : FVec F S_ .f32 := constant S_ .f32 0x7F800000#32
  let main_v1 : FVec F S16x16384 .f32 := broadcastInDim S16x16384 ![] bcast_S_S16x16384 main_cst
  let main_v2 : IVec S16x16384 1 := cmpf .olt main_v0 main_v1
  let main_c : IVec S_ 1 := constantI S_ 1 1#1
  let main_v3 : IVec S_ 1 := (fun x v => Host.reduce IntOp.andi x v reducesTo_S16x16384_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  main_v8
-- ==== Kernel.lean ====
abbrev S16x16384 : Shape := ⟨2, ![16, 16384]⟩
abbrev S16384x16384 : Shape := ⟨2, ![16384, 16384]⟩
abbrev S2048x2048 : Shape := ⟨2, ![2048, 2048]⟩
abbrev S16x2048 : Shape := ⟨2, ![16, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16x16384, .f32⟩
  | .hbm, ⟨1, _⟩ => ⟨S16384x16384, .f32⟩
  | .hbm, ⟨2, _⟩ => ⟨S16x16384, .f32⟩
  | .local _ .vmem, ⟨0, _⟩ => ⟨S16x16384, .f32⟩
  | .local _ .vmem, ⟨1, _⟩ => ⟨S2048x2048, .f32⟩
  | .local _ .vmem, ⟨2, _⟩ => ⟨S2048x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | _, _ => ⟨S16x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S16x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x2048_S2048x2048_0_0 : ∀ a, (![0, 0] : Fin 2 → Nat) a + S2048x2048.size a ≤ S2048x2048.size a
  h_S2048x2048 : 0 < S2048x2048.numel
  dot_S16x2048_S2048x2048_S16x2048_1_0_0_1_n_n_wf : DotDims.WF S16x2048 S2048x2048 S16x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S16x2048.size a ≤ S16x16384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x16384.size a ≤ S16x16384.size a
  hwx0_0 : ∀ i : grid0.Coords, EltTy.bits .f32 = 32 ∨ (Rect.block (s := S16x16384) S16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S16384x16384.size a
  hwx0_1 : ∀ i : grid0.Coords, EltTy.bits .f32 = 32 ∨ (Rect.block (s := S16384x16384) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x16384.size a
  hwx0_2 : ∀ i : grid0.Coords, EltTy.bits .f32 = 32 ∨ (Rect.block (s := S16x16384) S16x2048.size (cc0_transform_2 i) (hinb0_2 i)).WholeWords (EltTy.packing .f32)

variable [Facts₀]

def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf

abbrev win0_0 : Pipeline.Window sig grid0 :=
  Pipeline.Window.ofSpec (Memref.whole main_arg0) S16x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x16384 : Shape := ⟨2, ![16, 16384]⟩
abbrev S16384x16384 : Shape := ⟨2, ![16384, 16384]⟩

abbrev nBuf : Space → Nat
  | .hbm => 3
  | .vmem => 0
  | .smem => 0
  | _ => 0

abbrev bufTy : (tb : Table) → Fin (tcTables nBuf tb) → BufTy
  | .hbm, ⟨0, _⟩ => ⟨S16x16384, .f32⟩
  | .hbm, ⟨1, _⟩ => ⟨S16384x16384, .f32⟩
  | .hbm, ⟨2, _⟩ => ⟨S16x16384, .f32⟩
  | _, _ => ⟨S16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16x16384_S16384x16384_S16x16384_1_0_0_1_n_n_wf : DotDims.WF S16x16384 S16384x16384 S16x16384 [1] [0] [0] [1] [] []

variable [Facts₀]

def dot_S16x16384_S16384x16384_S16x16384_1_0_0_1_n_n : DotDims S16x16384 S16384x16384 S16x16384 where
  lhsContracting := [1]
  rhsContracting := [0]
  lhsNonContracting := [0]
  rhsNonContracting := [1]
  lhsBatch := []
  rhsBatch := []
  wf := dot_S16x16384_S16384x16384_S16x16384_1_0_0_1_n_n_wf

class Facts : Prop extends Facts₀ where

variable [Facts]
-- ==== Proof.Pieces.lean ====
/-
  What one grid step of the K-blocked product leaves behind, as a value.

  The kernel keeps a [16, 2048] accumulator between the grid steps of one column block. A step loads the
  [16, 2048] chunk of the left operand that belongs to its K-block (columns `2048 · k …` of the resident
  [16, 16384] block), the [2048, 2048] tile of the right operand, and adds their product to what the
  accumulator held: the step's value is `acc + chunk · tile`. At the first step of a column block the
  accumulator is first set to zero, so the step leaves `0 + chunk · tile`; at the last step the same value
  is also copied to the output block. The four statements below say exactly this of the four pieces the
  kernel's run leaves (the accumulator in each of the three control cases, and the output block in the
  last one): each is the body's one arithmetic term `k0_pay2` of the chunk, the previous accumulator and
  the tile.
-/
import proofs.«136594_j28776280883297_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-- The [16, 2048] chunk of the resident left operand that grid point `i` multiplies: its columns
    `2048 · i₁ … 2048 · i₁ + 2047`. -/
abbrev chunk (i : grid0.Coords) (x0 : Vec F S16x16384 .f32) : Vec F S16x2048 .f32 :=
  View.ld x0 (Rect.unit (s := S16x16384) (k0_off1 i) S16x2048.size (k0_off1_inb i))

/-- A middle step (neither first nor last of its column block): the accumulator `xs0` becomes
    `xs0 + chunk · tile`. -/
theorem sB (c : Dev nD) (i : grid0.Coords) (a2 : Memref sig .tc .vmem S16x16384 .f32) (h2 : a2.IsWhole)
    (a3 : Memref sig .tc .vmem S2048x2048 .f32) (h3 : a3.IsWhole) (a4 : Memref sig .tc .vmem S16x2048 .f32) (h4 : a4.IsWhole)
    (a5 : Memref sig .tc .vmem S16x2048 .f32) (h5 : a5.IsWhole) (hc0 : ¬cond0_0 i) (hc1 : ¬cond0_1 i)
    (x0 : Vec F S16x16384 .f32) (x1 : Vec F S2048x2048 .f32) (xs0 : Vec F S16x2048 .f32) :
    sout0_B_0 c i a2 h2 a3 h3 a4 h4 a5 h5 hc0 hc1 x0 x1 xs0 = k0_pay2 (chunk i x0) xs0 x1 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S16x2048) hz,
    View.ld_unit_zero (S := S2048x2048) hz]

/-- The first step of a column block: the accumulator is zeroed, read back, and becomes
    `0 + chunk · tile`. -/
theorem sA (c : Dev nD) (i : grid0.Coords) (a2 : Memref sig .tc .vmem S16x16384 .f32) (h2 : a2.IsWhole)
    (a3 : Memref sig .tc .vmem S2048x2048 .f32) (h3 : a3.IsWhole) (a4 : Memref sig .tc .vmem S16x2048 .f32) (h4 : a4.IsWhole)
    (a5 : Memref sig .tc .vmem S16x2048 .f32) (h5 : a5.IsWhole) (hc0 : cond0_0 i) (hc1 : ¬cond0_1 i)
    (x0 : Vec F S16x16384 .f32) (x1 : Vec F S2048x2048 .f32) :
    sout0_A_0 c i a2 h2 a3 h3 a4 h4 a5 h5 hc0 hc1 x0 x1 = k0_pay2 (chunk i x0) (k0_pay1 (F := F)) x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x2048) hz, View.readCov_unit_zero (S := S16x2048) _ hz]
  simp only [View.readAt_eq_ld, h2.read_unread, h3.read_unread, View.ld_unit_zero (S := S2048x2048) hz]
  rfl

/-- The last step of a column block: the accumulator `xs0` becomes `xs0 + chunk · tile` … -/
theorem sC (c : Dev nD) (i : grid0.Coords) (a2 : Memref sig .tc .vmem S16x16384 .f32) (h2 : a2.IsWhole)
    (a3 : Memref sig .tc .vmem S2048x2048 .f32) (h3 : a3.IsWhole) (a4 : Memref sig .tc .vmem S16x2048 .f32) (h4 : a4.IsWhole)
    (a5 : Memref sig .tc .vmem S16x2048 .f32) (h5 : a5.IsWhole) (hc0 : ¬cond0_0 i) (hc1 : cond0_1 i)
    (x0 : Vec F S16x16384 .f32) (x1 : Vec F S2048x2048 .f32) (xs0 : Vec F S16x2048 .f32) :
    sout0_C_0 c i a2 h2 a3 h3 a4 h4 a5 h5 hc0 hc1 x0 x1 xs0 = k0_pay2 (chunk i x0) xs0 x1 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S16x2048) hz]
  simp only [View.readAt_eq_ld, h2.read_unread, h3.read_unread, h5.read_unread, View.ld_unit_zero (S := S16x2048) hz,
    View.ld_unit_zero (S := S2048x2048) hz]
  rfl

/-- … and the output block receives that same value (the accumulator read back after its store). -/
theorem oC (c : Dev nD) (i : grid0.Coords) (a2 : Memref sig .tc .vmem S16x16384 .f32) (h2 : a2.IsWhole)
    (a3 : Memref sig .tc .vmem S2048x2048 .f32) (h3 : a3.IsWhole) (a4 : Memref sig .tc .vmem S16x2048 .f32) (h4 : a4.IsWhole)
    (a5 : Memref sig .tc .vmem S16x2048 .f32) (h5 : a5.IsWhole) (hc0 : ¬cond0_0 i) (hc1 : cond0_1 i)
    (x0 : Vec F S16x16384 .f32) (x1 : Vec F S2048x2048 .f32) (xs0 : Vec F S16x2048 .f32) :
    out0_C_2 c i a2 h2 a3 h3 a4 h4 a5 h5 hc0 hc1 x0 x1 xs0 = k0_pay2 (chunk i x0) xs0 x1 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S16x2048) hz, View.readCov_unit_zero (S := S16x2048) _ hz]
  simp only [View.readAt_eq_ld, h2.read_unread, h3.read_unread, h5.read_unread, View.ld_unit_zero (S := S16x2048) hz,
    View.ld_unit_zero (S := S2048x2048) hz]
  rfl

end Cert.KernelIdeal.Pieces

end
-- ==== Proof.Blocks.lean ====
/-
  Where a grid step's two input blocks sit in the argument arrays.

  The grid is 8 × 8: point `t` is step `t % 8` of the K axis in column block `t / 8`. The left operand's
  window is the whole [16, 16384] array at every point, and the body cuts from it the chunk of columns
  `2048 · (t % 8) …`; the right operand's window at `t` is the [2048, 2048] tile whose rows are
  `2048 · (t % 8) …` and whose columns are `2048 · (t / 8) …`; the output's window is the [16, 2048] block
  of columns `2048 · (t / 8) …`. These index relations are decided once over the 64 points; the two
  reading statements below then say which entry of an argument array an entry of a chunk or a tile is.
-/
import proofs.«136594_j28776280883297_2_alg».proof.Proof.Pieces
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- The block indices of the three windows and the K coordinate at a point, in closed form. -/
theorem index_facts : ∀ t : Fin cfg0.N,
    win0_0.index t 0 = 0 ∧ win0_0.index t 1 = 0 ∧ win0_1.index t 0 = t.val % 8 ∧ win0_1.index t 1 = t.val / 8
      ∧ win0_2.index t 0 = 0 ∧ win0_2.index t 1 = t.val / 8 ∧ (grid0.coords t 1).val = t.val % 8 :=
  (by decide +kernel : ∀ t : Fin grid0.N, _)

/-- Entry `(p, kk)` of the left operand's chunk at point `t` is entry `(p, 2048 · (t % 8) + kk)` of the
    first argument. -/
theorem chunk_apply (c : Dev nD) (t : Fin cfg0.N) (p : Fin 16) (kk : Fin 2048) (x : Fin 16384)
    (hx : x.val = 2048 * (t.val % 8) + kk.val) :
    chunk (grid0.coords t) (iblk m c 0 t) (ix2 p kk) = m ((c : Thread nD τ).loc main_arg0) (ix2 p x) := by
  obtain ⟨h00, h01, -, -, -, -, hk⟩ := index_facts t
  show iblk m c 0 t _ = _
  unfold iblk
  rw [View.read_apply]
  show V m c main_arg0 _ = m (c.tc.loc main_arg0) _
  unfold V
  congr 1
  funext a
  apply Fin.ext
  match a with
  | ⟨0, _⟩ =>
    show win0_0.index t 0 * 16 + 1 * (k0_off1 (grid0.coords t) 0 + 1 * p.val) = p.val
    rw [h00, k0_off1_eq]
    show 0 * 16 + 1 * (0 + 1 * p.val) = p.val
    omega
  | ⟨1, _⟩ =>
    show win0_0.index t 1 * 16384 + 1 * (k0_off1 (grid0.coords t) 1 + 1 * kk.val) = x.val
    rw [h01, k0_off1_eq]
    show 0 * 16384 + 1 * (2048 * (grid0.coords t 1).val + 1 * kk.val) = x.val
    rw [hk]
    omega

/-- Entry `(kk, q)` of the right operand's tile at point `t` is entry
    `(2048 · (t % 8) + kk, 2048 · (t / 8) + q)` of the second argument. -/
theorem tile_apply (c : Dev nD) (t : Fin cfg0.N) (kk : Fin 2048) (q : Fin 2048) (x j : Fin 16384)
    (hx : x.val = 2048 * (t.val % 8) + kk.val) (hj : j.val = 2048 * (t.val / 8) + q.val) :
    (iblk m c 1 t : Vec F S2048x2048 .f32) (ix2 kk q) = m ((c : Thread nD τ).loc main_arg1) (ix2 x j) := by
  obtain ⟨-, -, h10, h11, -, -, -⟩ := index_facts t
  unfold iblk
  rw [View.read_apply]
  show V m c main_arg1 _ = m (c.tc.loc main_arg1) _
  unfold V
  congr 1
  funext a
  apply Fin.ext
  match a with
  | ⟨0, _⟩ =>
    show win0_1.index t 0 * 2048 + 1 * kk.val = x.val
    rw [h10]
    omega
  | ⟨1, _⟩ =>
    show win0_1.index t 1 * 2048 + 1 * q.val = j.val
    rw [h11]
    omega

end Cert.KernelIdeal.Blocks
end
-- ==== Proof.Payload.lean ====
/-
  The step's arithmetic on the extended reals, entry by entry.

  With exact arithmetic the matrix unit's product into a zero accumulator is the plain sum of products
  over the contracted axis, and the elementwise addition is the addition of extended reals. So entry
  `(p, q)` of a step's value `acc + a · b` is `acc (p, q) + ∑ₖ a (p, k) · b (k, q)`, `k` running over the
  2048 positions of the K-block, and the zero block the first step starts from is `0` everywhere.
-/
import proofs.«136594_j28776280883297_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-- The zero block is `0` at every entry. -/
theorem zero_apply (j : S16x2048.Idx) : k0_pay1 (F := Ideal) j = 0 := by
  unfold k0_pay1
  simp only [shapeCast_self]
  show Ideal.ofBits .f32 0x00000000#32 = 0
  exact Ideal.ofBits_zero_f32

/-- The left operand is read at the output's row … -/
theorem lhs_row (i : S16x2048.Idx) (r : dot_S16x2048_S2048x2048_S16x2048_1_0_0_1_n_n.contr.Idx) :
    (dot_S16x2048_S2048x2048_S16x2048_1_0_0_1_n_n.lhsIdx i r 0).val = (i 0).val := by
  unfold DotDims.lhsIdx
  rw [dif_neg (show ¬(0 : Fin S16x2048.rank) ∈ dot_S16x2048_S2048x2048_S16x2048_1_0_0_1_n_n.lhsBatch by decide),
    dif_pos (show (0 : Fin S16x2048.rank) ∈ dot_S16x2048_S2048x2048_S16x2048_1_0_0_1_n_n.lhsNonContracting by decide)]
  rfl
/-- … and the contracted position; -/
theorem lhs_col (i : S16x2048.Idx) (r : dot_S16x2048_S2048x2048_S16x2048_1_0_0_1_n_n.contr.Idx) :
    (dot_S16x2048_S2048x2048_S16x2048_1_0_0_1_n_n.lhsIdx i r 1).val = (r ⟨0, by decide⟩).val :=
  dot_S16x2048_S2048x2048_S16x2048_1_0_0_1_n_n.lhsIdx_val_of_single rfl i r
/-- the right operand at the contracted position … -/
theorem rhs_row (i : S16x2048.Idx) (r : dot_S16x2048_S2048x2048_S16x2048_1_0_0_1_n_n.contr.Idx) :
    (dot_S16x2048_S2048x2048_S16x2048_1_0_0_1_n_n.rhsIdx i r 0).val = (r ⟨0, by decide⟩).val :=
  dot_S16x2048_S2048x2048_S16x2048_1_0_0_1_n_n.rhsIdx_val_of_single rfl i r
/-- … and the output's column. -/
theorem rhs_col (i : S16x2048.Idx) (r : dot_S16x2048_S2048x2048_S16x2048_1_0_0_1_n_n.contr.Idx) :
    (dot_S16x2048_S2048x2048_S16x2048_1_0_0_1_n_n.rhsIdx i r 1).val = (i 1).val := by
  unfold DotDims.rhsIdx
  rw [dif_neg (show ¬(1 : Fin S2048x2048.rank) ∈ dot_S16x2048_S2048x2048_S16x2048_1_0_0_1_n_n.rhsBatch by decide),
    dif_pos (show (1 : Fin S2048x2048.rank) ∈ dot_S16x2048_S2048x2048_S16x2048_1_0_0_1_n_n.rhsNonContracting by decide)]
  rfl

/-- One block's product at an entry: the sum over the K-block's 2048 positions. -/
theorem product_apply (a : FVec Ideal S16x2048 .f32) (b : FVec Ideal S2048x2048 .f32) (p : Fin 16) (q : Fin 2048) :
    matmul (F := Ideal) dot_S16x2048_S2048x2048_S16x2048_1_0_0_1_n_n none a b (constant S16x2048 .f32 0x00000000#32) (ix2 p q)
      = ∑ k : Fin 2048, a (ix2 p k) * b (ix2 k q) := by
  simp only [matmul]
  rw [Ideal.matmul_constant_zero_apply,
    ← Equiv.sum_comp (contrEquiv1 dot_S16x2048_S2048x2048_S16x2048_1_0_0_1_n_n 2048 rfl rfl).symm]
  refine Finset.sum_congr rfl fun k _ => ?_
  have hk := contrEquiv1_symm_val dot_S16x2048_S2048x2048_S16x2048_1_0_0_1_n_n 2048 rfl rfl k
  have el : dot_S16x2048_S2048x2048_S16x2048_1_0_0_1_n_n.lhsIdx (ix2 p q)
      ((contrEquiv1 dot_S16x2048_S2048x2048_S16x2048_1_0_0_1_n_n 2048 rfl rfl).symm k) = ix2 p k :=
    funext fun d => Fin.ext (by
      match d with
      | ⟨0, _⟩ => exact lhs_row _ _
      | ⟨1, _⟩ => exact (lhs_col _ _).trans hk)
  have er : dot_S16x2048_S2048x2048_S16x2048_1_0_0_1_n_n.rhsIdx (ix2 p q)
      ((contrEquiv1 dot_S16x2048_S2048x2048_S16x2048_1_0_0_1_n_n 2048 rfl rfl).symm k) = ix2 k q :=
    funext fun d => Fin.ext (by
      match d with
      | ⟨0, _⟩ => exact (rhs_row _ _).trans hk
      | ⟨1, _⟩ => exact rhs_col _ _)
  rw [el, er]

/-- A step's value at an entry: the accumulator there plus the block's sum of products. -/
theorem step_apply (a acc : Vec Ideal S16x2048 .f32) (b : Vec Ideal S2048x2048 .f32) (p : Fin 16) (q : Fin 2048) :
    k0_pay2 (F := Ideal) a acc b (ix2 p q) = acc (ix2 p q) + ∑ k : Fin 2048, a (ix2 p k) * b (ix2 k q) := by
  unfold k0_pay2
  simp only [shapeCast_self]
  show acc (ix2 p q) + matmul (F := Ideal) dot_S16x2048_S2048x2048_S16x2048_1_0_0_1_n_n none a b
      (constant S16x2048 .f32 0x00000000#32) (ix2 p q) = _
  rw [product_apply]

end Cert.KernelIdeal.Payload

end
-- ==== Proof.BlockSum.lean ====
/-
  A sum over a contracted axis of length 8 · 2048, taken block by block.

  A running sum that starts at zero and, at step `k`, adds the `2048` terms `f (k · 2048 + j)` is,
  after step `k`, the sum of the first `(k + 1) · 2048` terms; after the eighth step it is the whole
  sum over `Fin 16384`. Only commutativity and associativity of the addition are used, so the
  statements hold in any additive commutative monoid — in particular on the extended reals, with
  no finiteness assumption.
-/
import Mathlib.Algebra.BigOperators.Fin
import Mathlib.Algebra.BigOperators.Intervals

namespace Cert.BlockSum

open Finset

variable {M : Type*} [AddCommMonoid M]

/-- The first `(k + 1) · 2048` terms are the first `k · 2048` terms and then block `k`. -/
theorem range_succ_block (f : ℕ → M) (k : ℕ) :
    ∑ x ∈ range ((k + 1) * 2048), f x
      = ∑ x ∈ range (k * 2048), f x + ∑ j : Fin 2048, f (k * 2048 + j.val) := by
  rw [Fin.sum_univ_eq_sum_range (fun j => f (k * 2048 + j)) 2048, ← Finset.sum_range_add,
    Nat.add_mul, Nat.one_mul]

/-- Block `0` alone, added to zero. -/
theorem range_first_block (f : ℕ → M) :
    ∑ x ∈ range ((0 + 1) * 2048), f x = 0 + ∑ j : Fin 2048, f (0 * 2048 + j.val) := by
  rw [range_succ_block, Nat.zero_mul, Finset.range_zero, Finset.sum_empty]

/-- All eight blocks: the whole sum over the contracted axis. -/
theorem range_all (f : ℕ → M) :
    ∑ x ∈ range ((7 + 1) * 2048), f x = ∑ k : Fin 16384, f k.val := by
  rw [Fin.sum_univ_eq_sum_range f 16384]

end Cert.BlockSum
-- ==== Proof.Running.lean ====
/-
  The accumulator after every grid step, entry by entry, on the extended reals.

  Fix a row `p` and a column `j` of the result and write `term x = A (p, x) · B (x, j)` for the `x`-th
  product of their inner product. After step `k = t % 8` of column block `t / 8` the accumulator's entry
  `(p, q)`, with `j = 2048 · (t / 8) + q`, is the sum of the first `(k + 1) · 2048` terms: the first step
  starts from zero and adds block `0`, every later step adds block `k` to what the step before left.
  This is an induction along the grid points; the regrouping of the sum into blocks uses only that the
  addition of extended reals is commutative and associative.
-/
import proofs.«136594_j28776280883297_2_alg».proof.Proof.Blocks
import proofs.«136594_j28776280883297_2_alg».proof.Proof.Payload
import proofs.«136594_j28776280883297_2_alg».proof.Proof.BlockSum

noncomputable section

open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.KernelIdeal.Pieces Cert.KernelIdeal.Blocks Finset

/-- The `x`-th product of row `p` of `A` with column `j` of `B` (zero past the contracted axis, where no
    sum below reaches). -/
def term (A : (⟨S16x16384, .f32⟩ : BufTy).Contents (Elt Ideal)) (B : (⟨S16384x16384, .f32⟩ : BufTy).Contents (Elt Ideal))
    (p : Fin 16) (j : Fin 16384) (x : ℕ) : EReal :=
  if h : x < 16384 then A (ix2 p ⟨x, h⟩) * B (ix2 ⟨x, h⟩ j) else 0

variable (m : (ℓ : Loc nD τ sig) → Buf (Elt Ideal) ℓ)

/-- At point `t` the product of the chunk's entry `(p, kk)` with the tile's entry `(kk, q)` is term
    `(t % 8) · 2048 + kk` of the inner product for column `j = 2048 · (t / 8) + q`. -/
theorem block_term (c : Dev nD) (t : Fin cfg0.N) (p : Fin 16) (q : Fin 2048) (j : Fin 16384)
    (hj : j.val = 2048 * (t.val / 8) + q.val) (kk : Fin 2048) :
    chunk (grid0.coords t) (iblk m c 0 t) (ix2 p kk) * (iblk m c 1 t : Vec Ideal S2048x2048 .f32) (ix2 kk q)
      = term (m ((c : Thread nD τ).loc main_arg0)) (m ((c : Thread nD τ).loc main_arg1)) p j (t.val % 8 * 2048 + kk.val) := by
  have hx : t.val % 8 * 2048 + kk.val < 16384 := by have := kk.isLt; omega
  unfold term
  rw [dif_pos hx, chunk_apply m c t p kk ⟨_, hx⟩ (by show t.val % 8 * 2048 + kk.val = _; omega),
    tile_apply m c t kk q ⟨_, hx⟩ j (by show t.val % 8 * 2048 + kk.val = _; omega) hj]

/-- One step at point `t`: an accumulator whose entry is the sum of the first `(t % 8) · 2048` terms becomes one
    whose entry is the sum of the first `(t % 8 + 1) · 2048`. -/
theorem step_sum (c : Dev nD) (t : Fin cfg0.N) (p : Fin 16) (q : Fin 2048) (j : Fin 16384)
    (hj : j.val = 2048 * (t.val / 8) + q.val) (acc : Vec Ideal S16x2048 .f32)
    (hacc : acc (ix2 p q)
      = ∑ x ∈ range (t.val % 8 * 2048), term (m ((c : Thread nD τ).loc main_arg0)) (m ((c : Thread nD τ).loc main_arg1)) p j x) :
    k0_pay2 (F := Ideal) (chunk (grid0.coords t) (iblk m c 0 t)) acc (iblk m c 1 t) (ix2 p q)
      = ∑ x ∈ range ((t.val % 8 + 1) * 2048), term (m ((c : Thread nD τ).loc main_arg0)) (m ((c : Thread nD τ).loc main_arg1)) p j x := by
  refine (Payload.step_apply (chunk (grid0.coords t) (iblk m c 0 t)) acc (iblk m c 1 t) p q).trans ?_
  rw [hacc, Finset.sum_congr rfl (fun kk _ => block_term m c t p q j hj kk)]
  exact (BlockSum.range_succ_block _ _).symm

/-- The first step of a column block starts from the zero block: the empty sum. -/
theorem zero_sum (c : Dev nD) (t : Fin cfg0.N) (h0 : t.val % 8 = 0) (p : Fin 16) (q : Fin 2048) (j : Fin 16384) :
    k0_pay1 (F := Ideal) (ix2 p q)
      = ∑ x ∈ range (t.val % 8 * 2048), term (m ((c : Thread nD τ).loc main_arg0)) (m ((c : Thread nD τ).loc main_arg1)) p j x := by
  rw [Payload.zero_apply, h0, Nat.zero_mul, Finset.range_zero, Finset.sum_empty]

/-- THE ACCUMULATOR after point `n`: its entry `(p, q)` is the sum of the first `(n % 8 + 1) · 2048` terms of the inner
    product of row `p` with column `2048 · (n / 8) + q`. By induction on the point. -/
theorem acc_eq (c : Dev nD) : ∀ (n : ℕ) (h : n < cfg0.N) (p : Fin 16) (q : Fin 2048) (j : Fin 16384),
    j.val = 2048 * (n / 8) + q.val →
    (outsAt0 m c n h).2 (ix2 p q)
      = ∑ x ∈ range ((n % 8 + 1) * 2048), term (m ((c : Thread nD τ).loc main_arg0)) (m ((c : Thread nD τ).loc main_arg1)) p j x
  | 0, h, p, q, j, hj => by
    rw [outsAt0_A m c ⟨0, h⟩ rfl (by show ¬(0 : ℕ) % 8 = 7; decide)]
    dsimp only
    refine (congrFun (sA (F := Ideal) c (grid0.coords ⟨0, h⟩) _ _ _ _ _ _ _ _ _ _ (iblk m c 0 ⟨0, h⟩) (iblk m c 1 ⟨0, h⟩)) (ix2 p q)).trans ?_
    exact step_sum m c ⟨0, h⟩ p q j hj _ (zero_sum m c ⟨0, h⟩ rfl p q j)
  | n + 1, h, p, q, j, hj => by
    have hN : n + 1 < 64 := lt_of_lt_of_eq h (show cfg0.N = 64 from N_0)
    by_cases h0 : (n + 1) % 8 = 0
    · have h1 : ¬(n + 1) % 8 = 7 := by omega
      rw [outsAt0_A m c ⟨n + 1, h⟩ h0 h1]
      dsimp only
      refine (congrFun (sA (F := Ideal) c (grid0.coords ⟨n + 1, h⟩) _ _ _ _ _ _ _ _ _ _ (iblk m c 0 ⟨n + 1, h⟩) (iblk m c 1 ⟨n + 1, h⟩)) (ix2 p q)).trans ?_
      exact step_sum m c ⟨n + 1, h⟩ p q j hj _ (zero_sum m c ⟨n + 1, h⟩ h0 p q j)
    · have hprev : (outsAt0 m c n (Nat.lt_of_succ_lt h)).2 (ix2 p q)
          = ∑ x ∈ range ((n + 1) % 8 * 2048), term (m ((c : Thread nD τ).loc main_arg0)) (m ((c : Thread nD τ).loc main_arg1)) p j x := by
        rw [acc_eq c n (Nat.lt_of_succ_lt h) p q j (by omega), show n % 8 + 1 = (n + 1) % 8 by omega]
      by_cases h1 : (n + 1) % 8 = 7
      · rw [outsAt0_C m c ⟨n + 1, h⟩ h0 h1]
        dsimp only
        refine (congrFun (sC (F := Ideal) c (grid0.coords ⟨n + 1, h⟩) _ _ _ _ _ _ _ _ _ _ (iblk m c 0 ⟨n + 1, h⟩) (iblk m c 1 ⟨n + 1, h⟩)
          (outsAt0 m c n (Nat.lt_of_succ_lt h)).2) (ix2 p q)).trans ?_
        exact step_sum m c ⟨n + 1, h⟩ p q j hj _ hprev
      · rw [outsAt0_B m c ⟨n + 1, h⟩ h0 h1]
        dsimp only
        refine (congrFun (sB (F := Ideal) c (grid0.coords ⟨n + 1, h⟩) _ _ _ _ _ _ _ _ _ _ (iblk m c 0 ⟨n + 1, h⟩) (iblk m c 1 ⟨n + 1, h⟩)
          (outsAt0 m c n (Nat.lt_of_succ_lt h)).2) (ix2 p q)).trans ?_
        exact step_sum m c ⟨n + 1, h⟩ p q j hj _ hprev

end Cert.KernelIdeal.Running

end
-- ==== Proof.Final.lean ====
/-
  The result array after the kernel's run: every entry is the whole inner product.

  The output block of column block `n` is written back once, after the last K step (the points with
  `t % 8 = 7`), and what is written is the accumulator after that step: by the induction along the
  points, entry `(p, q)` is the sum of all `8 · 2048` terms of the inner product of row `p` of `A` with
  column `2048 · n + q` of `B`. The eight written blocks tile the [16, 16384] result, column `j` lying in
  the block written at point `8 · (j / 2048) + 7`; so the array ends holding, at `(p, j)`, that full sum.
-/
import proofs.«136594_j28776280883297_2_alg».proof.Proof.Running
import proofs.«136594_j28776280883297_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Blocks Cert.KernelIdeal.Running Finset

/-- The inner product of row `p` of `A` with column `j` of `B`, all `8 · 2048` terms. -/
def entry (A : (⟨S16x16384, .f32⟩ : BufTy).Contents (Elt Ideal)) (B : (⟨S16384x16384, .f32⟩ : BufTy).Contents (Elt Ideal))
    (p : Fin 16) (j : Fin 16384) : EReal :=
  ∑ x ∈ range ((7 + 1) * 2048), term A B p j x

/-- The matrix product `A · B`, entry by entry. -/
def product (A : (⟨S16x16384, .f32⟩ : BufTy).Contents (Elt Ideal)) (B : (⟨S16384x16384, .f32⟩ : BufTy).Contents (Elt Ideal)) :
    (⟨S16x16384, .f32⟩ : BufTy).Contents (Elt Ideal) :=
  fun i => entry A B ⟨(i 0).val, idx2_lt0 i⟩ ⟨(i 1).val, idx2_lt1 i⟩

variable (m : (ℓ : Loc nD τ sig) → Buf (Elt Ideal) ℓ) (ρ : Dev nD → PrngReg)

/-- What the result array holds after the run: the product of the two argument arrays. -/
abbrev result (c : Dev nD) : Buf (Elt Ideal) ((c : Thread nD τ).loc main_v0) :=
  product (m ((c : Thread nD τ).loc main_arg0)) (m ((c : Thread nD τ).loc main_arg1))

/-- At a last K step the output block's entry `(p, q)` is the full inner product for column
    `2048 · (t / 8) + q`. -/
theorem out_entry (c : Dev nD) (t : Fin cfg0.N) (h0 : ¬t.val % 8 = 0) (h1 : t.val % 8 = 7) (p : Fin 16) (q : Fin 2048)
    (j : Fin 16384) (hj : j.val = 2048 * (t.val / 8) + q.val) :
    out0_C_2 c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h1) (iblk m c 0 t) (iblk m c 1 t)
        (outsAt0 m c (t.val - 1) (Nat.lt_of_le_of_lt (Nat.sub_le _ _) t.isLt)).2 (ix2 p q)
      = entry (m ((c : Thread nD τ).loc main_arg0)) (m ((c : Thread nD τ).loc main_arg1)) p j := by
  have hprev : (outsAt0 m c (t.val - 1) (Nat.lt_of_le_of_lt (Nat.sub_le _ _) t.isLt)).2 (ix2 p q)
      = ∑ x ∈ range (t.val % 8 * 2048), term (m ((c : Thread nD τ).loc main_arg0)) (m ((c : Thread nD τ).loc main_arg1)) p j x := by
    rw [acc_eq m c (t.val - 1) _ p q j (by omega), show (t.val - 1) % 8 + 1 = t.val % 8 by omega]
  refine (congrFun (oC (F := Ideal) c (grid0.coords t) _ _ _ _ _ _ _ _ _ _ (iblk m c 0 t) (iblk m c 1 t)
    (outsAt0 m c (t.val - 1) (Nat.lt_of_le_of_lt (Nat.sub_le _ _) t.isLt)).2) (ix2 p q)).trans ?_
  refine (step_sum m c t p q j hj _ hprev).trans ?_
  unfold entry
  rw [h1]

/-- A block `X` whose entry `(p, q)` is the array `G`'s entry at the place the output window's block at point `t`
    puts `(p, q)` is that block of `G` (what is written back is the block as the body left it). -/
theorem cut_eq_read (t : Fin cfg0.N) {c : Dev nD} (G : Buf (Elt Ideal) ((c : Thread nD τ).loc main_v0))
    (X : Vec Ideal S16x2048 .f32)
    (hX : ∀ (p : Fin 16) (q : Fin 2048), X (ix2 p q) = G (((cfg0.win 2).blk t).view.emb (ix2 p q))) :
    (cfg0.win 2).cut (grid0.coords t) X = ((cfg0.win 2).blk t).view.read (Elt Ideal) G := by
  refine funext fun (y : S16x2048.Idx) => ?_
  obtain ⟨p, q, rfl⟩ : ∃ (p : Fin 16) (q : Fin 2048), y = ix2 p q := ⟨y 0, y 1, eq_ix2 y⟩
  exact hX p q

/-- WHAT A WRITE-BACK WRITES: at a point that writes the output block back, the block of the product it covers. -/
theorem flushed_eq (c : Dev nD) (t : Fin cfg0.N) (hf : (cfg0.win 2).flush t = true) :
    (dats m 0 c).flushed 2 t = ((cfg0.win 2).blk t).view.read (Elt Ideal) (result m c) := by
  have h1 : t.val % 8 = 7 := (flush0_2 t).mp hf
  have h0 : ¬t.val % 8 = 0 := by omega
  have hN : t.val < 64 := lt_of_lt_of_eq t.isLt (show cfg0.N = 64 from N_0)
  obtain ⟨-, -, -, -, h20, h21, -⟩ := index_facts t
  rw [Value.flushed2_C m c t h0 h1]
  refine cut_eq_read t (result m c) _ fun p q => ?_
  have hq := q.isLt
  refine (out_entry m c t h0 h1 p q ⟨2048 * (t.val / 8) + q.val, by omega⟩ rfl).trans ?_
  unfold result product
  congr 1
  · apply Fin.ext
    show p.val = win0_2.index t 0 * 16 + 1 * p.val
    rw [h20]; omega
  · apply Fin.ext
    show 2048 * (t.val / 8) + q.val = win0_2.index t 1 * 2048 + 1 * q.val
    rw [h21]; omega

/-- An index of the result array is in point `t`'s block iff each coordinate is in the block's range on its axis. -/
theorem mem_blk (t : Fin cfg0.N) (i : S16x16384.Idx) :
    i ∈ ((cfg0.win 2).blk t).view.set ↔ ∀ a : Fin 2, win0_2.index t a * S16x2048.size a ≤ (i a).val ∧ (i a).val < win0_2.index t a * S16x2048.size a + S16x2048.size a := by
  show i ∈ ((View.whole main_v0).slice (win0_2.rect t)).set ↔ _
  rw [View.set_slice_whole, Rect.mem_set_unit]
  exact Iff.rfl

/-- Every entry of the result lies in a block that is written back: column `j` in the block of point
    `8 · (j / 2048) + 7`. -/
theorem cover (i : S16x16384.Idx) :
    ∃ t : Fin cfg0.N, (cfg0.win 2).flush t = true ∧ i ∈ ((cfg0.win 2).blk t).view.set := by
  have hi0 : (i 0).val < 16 := idx2_lt0 i
  have hi1 : (i 1).val < 16384 := idx2_lt1 i
  have hN : cfg0.N = 64 := N_0
  refine ⟨⟨8 * ((i 1).val / 2048) + 7, by rw [hN]; omega⟩, ?_, ?_⟩
  · exact (flush0_2 _).mpr (by show (8 * ((i 1).val / 2048) + 7) % 8 = 7; omega)
  · obtain ⟨-, -, -, -, h20, h21, -⟩ := index_facts ⟨8 * ((i 1).val / 2048) + 7, by rw [hN]; omega⟩
    rw [mem_blk]
    intro a
    match a with
    | ⟨0, _⟩ =>
      show win0_2.index _ 0 * 16 ≤ (i 0).val ∧ (i 0).val < win0_2.index _ 0 * 16 + 16
      rw [h20]; omega
    | ⟨1, _⟩ =>
      show win0_2.index _ 1 * 2048 ≤ (i 1).val ∧ (i 1).val < win0_2.index _ 1 * 2048 + 2048
      rw [h21]
      show (8 * ((i 1).val / 2048) + 7) / 8 * 2048 ≤ (i 1).val ∧ (i 1).val < (8 * ((i 1).val / 2048) + 7) / 8 * 2048 + 2048
      omega

/-- THE RESULT ARRAY after the run is the product. -/
theorem final (c : Dev nD) : (dats m 0 c).arrAt 2 cfg0.N = result m c :=
  (dats m 0 c).arrAt_eq_of_cover 2 (result m c) (flushed_eq m c) cover

/-- The kernel's run, read: the result array at the product of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.Reference.lean ====
/-
  The reference computes the same product.

  On the extended reals the host's `dot_general` over the one contracted axis is, at `(p, j)`, the sum over
  `k : Fin 16384` of `A (p, k) · B (k, j)` — the same `16384 = 8 · 2048` terms the kernel's blocks add up, taken
  in one go. So the reference's result is the product the kernel's result array ends holding.
-/
import proofs.«136594_j28776280883297_2_alg».proof.Proof.Final
import proofs.«136594_j28776280883297_2_alg».proof.Proof.Gen.ReferenceIdeal.Read

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.KernelIdeal.Final Cert.KernelIdeal.Running

/-- The host's `dot_general` of the two arrays (the reference's one operation, `val_main_v0`) is their product,
    entry by entry. -/
theorem dot_eq_product (A : (⟨S16x16384, .f32⟩ : BufTy).Contents (Elt Ideal)) (B : (⟨S16384x16384, .f32⟩ : BufTy).Contents (Elt Ideal)) :
    Read.val_main_v0 (F := Ideal) A B = product A B := by
  funext i
  refine (Read.val_main_v0_apply A B i).trans ?_
  unfold product entry
  rw [Cert.BlockSum.range_all]
  refine Finset.sum_congr rfl fun k _ => ?_
  unfold term
  rw [dif_pos k.isLt]
  have el : Read.lidx_main_v0 i k = ix2 (⟨(i 0).val, idx2_lt0 i⟩ : Fin 16) (⟨k.val, k.isLt⟩ : Fin 16384) :=
    funext fun a => Fin.ext (by match a with | ⟨0, _⟩ => rfl | ⟨1, _⟩ => rfl)
  have er : Read.ridx_main_v0 i k = ix2 (⟨k.val, k.isLt⟩ : Fin 16384) (⟨(i 1).val, idx2_lt1 i⟩ : Fin 16384) :=
    funext fun a => Fin.ext (by match a with | ⟨0, _⟩ => rfl | ⟨1, _⟩ => rfl)
  rw [el, er]

end Cert.ReferenceIdeal.RefValue

end
-- ==== Proof.lean ====
/-
  A K-blocked matrix product against `A @ B`, on the extended reals.

  The kernel computes `C = A · B` for `A` [16, 16384] and `B` [16384, 16384] on an 8 × 8 grid: for each of the
  eight [16, 2048] column blocks of `C` it walks the eight K-blocks of 2048, keeping a [16, 2048] accumulator that
  is set to zero at the first K step and increased by `A[:, K-block] · B[K-block, column block]` at every step,
  and copies the accumulator to the output block at the last K step. The reference is one `dot_general` over
  the whole contracted axis.

  With exact arithmetic both are, at `(p, j)`, the sum of the `16384` products `A (p, k) · B (k, j)`: the kernel
  adds them in eight consecutive blocks of 2048 starting from zero, the reference all at once. The two sums
  agree because the addition of extended reals is commutative and associative; no term is moved across a
  product, so nothing needs the inputs to be finite and the precondition is never opened.

  The modules: BlockSum (a sum taken block by block), Pieces (what one grid step leaves, as the body's
  arithmetic term), Payload (that term entry by entry), Blocks (which entries of `A` and `B` a step reads),
  Running (the accumulator after every point, by induction), Final (the result array after the run),
  Reference (the host's `dot_general` is the same product). The three frames are the generated ones
  (the reference's is its generated run with the result dropped); the idealization changed nothing.
-/
import proofs.«136594_j28776280883297_2_alg».proof.Defs
import proofs.«136594_j28776280883297_2_alg».proof.Proof.Gen.Kernel
import proofs.«136594_j28776280883297_2_alg».proof.Proof.Gen.Kernel.Skeleton
import proofs.«136594_j28776280883297_2_alg».proof.Proof.Gen.Kernel.Launch
import proofs.«136594_j28776280883297_2_alg».proof.Proof.Gen.Kernel.Points
import proofs.«136594_j28776280883297_2_alg».proof.Proof.Gen.Kernel.Frame
import proofs.«136594_j28776280883297_2_alg».proof.Proof.Gen.KernelIdeal
import proofs.«136594_j28776280883297_2_alg».proof.Proof.Gen.KernelIdeal.Skeleton
import proofs.«136594_j28776280883297_2_alg».proof.Proof.Gen.KernelIdeal.Launch
import proofs.«136594_j28776280883297_2_alg».proof.Proof.Gen.KernelIdeal.Points
import proofs.«136594_j28776280883297_2_alg».proof.Proof.Gen.KernelIdeal.Frame
import proofs.«136594_j28776280883297_2_alg».proof.Proof.Gen.ReferenceIdeal
import proofs.«136594_j28776280883297_2_alg».proof.Proof.Gen.Pre_finite_inputs
import proofs.«136594_j28776280883297_2_alg».proof.Proof.Gen.KernelIdeal.Value
import proofs.«136594_j28776280883297_2_alg».proof.Proof.Gen.ReferenceIdeal.Run
import proofs.«136594_j28776280883297_2_alg».proof.Proof.Gen.ReferenceIdeal.Read
import Idealize.ShloMosaic.Adequacy
import Idealize.ShloMosaic.Init

import proofs.«136594_j28776280883297_2_alg».proof.Proof.Final
import proofs.«136594_j28776280883297_2_alg».proof.Proof.Reference

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the product of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.dot_eq_product _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
